-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x256 .f32) (main_arg5 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩

abbrev nBuf : Space → Nat
  | .hbm => 91
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S850000x1, .f32⟩
  | .hbm, ⟨47, _⟩ => ⟨S50000x256, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x256, .f32⟩
  | .hbm, ⟨79, _⟩ => ⟨S850000x256, .f32⟩
  | .hbm, ⟨80, _⟩ => ⟨S850000x256, .f32⟩
  | .hbm, ⟨81, _⟩ => ⟨S_, .f32⟩
  | .hbm, ⟨82, _⟩ => ⟨S50000x256, .f32⟩
  | .hbm, ⟨83, _⟩ => ⟨S850000x1, .i32⟩
  | .hbm, ⟨84, _⟩ => ⟨S50000x256, .f32⟩
  | .hbm, ⟨85, _⟩ => ⟨S1x256, .f32⟩
  | .hbm, ⟨86, _⟩ => ⟨S50000x256, .f32⟩
  | .hbm, ⟨87, _⟩ => ⟨S50000x256, .f32⟩
  | .hbm, ⟨88, _⟩ => ⟨S_, .f32⟩
  | .hbm, ⟨89, _⟩ => ⟨S50000x256, .f32⟩
  | .hbm, ⟨90, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call2_cst : Ref sig .tc := ⟨.hbm, 88, rfl⟩
abbrev main_call2_v0 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000, .i32⟩
  | .hbm, ⟨70, _⟩ => ⟨S850000, .i32⟩
  | .hbm, ⟨71, _⟩ => ⟨S850000, .i32⟩
  | .hbm, ⟨72, _⟩ => ⟨S_, .f32⟩
  | .hbm, ⟨73, _⟩ => ⟨S850000, .f32⟩
  | .hbm, ⟨74, _⟩ => ⟨S_, .f32⟩
  | .hbm, ⟨75, _⟩ => ⟨S50000, .f32⟩
  | .hbm, ⟨76, _⟩ => ⟨S850000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000, .f32⟩
  | .hbm, ⟨104, _⟩ => ⟨S850000, .f32⟩
  | .hbm, ⟨105, _⟩ => ⟨S50000x256, .f32⟩
  | .hbm, ⟨106, _⟩ => ⟨S850000x1, .f32⟩
  | .hbm, ⟨107, _⟩ => ⟨S_, .i32⟩
  | .hbm, ⟨108, _⟩ => ⟨S850000, .i32⟩
  | .hbm, ⟨109, _⟩ => ⟨S850000, .i1⟩
  | .hbm, ⟨110, _⟩ => ⟨S_, .i32⟩
  | .hbm, ⟨111, _⟩ => ⟨S850000, .i32⟩
  | .hbm, ⟨112, _⟩ => ⟨S850000, .i32⟩
  | .hbm, ⟨113, _⟩ => ⟨S850000, .i32⟩
  | .hbm, ⟨114, _⟩ => ⟨S850000x1, .i32⟩
  | .hbm, ⟨115, _⟩ => ⟨S850000x256, .f32⟩
  | .hbm, ⟨116, _⟩ => ⟨S850000x256, .f32⟩
  | .hbm, ⟨117, _⟩ => ⟨S850000x256, .f32⟩
  | .hbm, ⟨118, _⟩ => ⟨S_, .f32⟩
  | .hbm, ⟨119, _⟩ => ⟨S50000x256, .f32⟩
  | .hbm, ⟨120, _⟩ => ⟨S850000x1, .i32⟩
  | .hbm, ⟨121, _⟩ => ⟨S50000x256, .f32⟩
  | .hbm, ⟨122, _⟩ => ⟨S1x256, .f32⟩
  | .hbm, ⟨123, _⟩ => ⟨S50000x256, .f32⟩
  | .hbm, ⟨124, _⟩ => ⟨S50000x256, .f32⟩
  | .hbm, ⟨125, _⟩ => ⟨S_, .f32⟩
  | .hbm, ⟨126, _⟩ => ⟨S50000x256, .f32⟩
  | .hbm, ⟨127, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The kernel program's run with its result named.

  @main is nine segments: three stretches of host operations, the first dense layer's region, two stretches, the
  second dense layer's region, two stretches. The buffer contents at each boundary are a fold from the launch memory
  (W0 … W9 of the frame module): a stretch applies its operations, a region replaces its output array by what its
  write-backs leave. Every weakly fair execution terminates without a fault, and every unscoped buffer ends at the
  last boundary's contents W9 — in particular the result buffer, which is what is added here to the frame's
  statement that the arguments end unchanged.
-/
import proofs.«160929_j9560597201316_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the six arguments as launched. -/
theorem run : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.KernelRun

end
-- ==== Proof.BlockProduct.lean ====
/-
  One grid point of either dense layer, read at an index.

  A point of the first layer holds a block of 2000 rows of the node features (2000 × 128) and the whole weight
  matrix (128 × 256); it rounds both to bf16 — the identity on extended reals — and multiplies them into a zero
  accumulator. So entry (p, q) of what it stores is  ∑ₖ block(p, k) · W(k, q),  k over the 128 feature columns.
  The second layer is the same with 256 in place of 128 (its block passes through a shape cast to its own shape,
  which is the identity too).
-/
import proofs.«160929_j9560597201316_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.TcCoe Idealize.SL.Sem

/-! ## First layer: a 2000 × 128 block times the 128 × 256 weights -/

/-- Entry (row of j, k) of a first-layer block. -/
abbrev lrow0 (j : S2000x256.Idx) (k : Fin 128) : S2000x128.Idx := fun a => match a with
  | ⟨0, _⟩ => ⟨(j 0).val, (j 0).isLt⟩
  | ⟨1, _⟩ => ⟨k.val, k.isLt⟩
/-- Entry (k, column of j) of the first-layer weights. -/
abbrev rcol0 (j : S2000x256.Idx) (k : Fin 128) : S128x256.Idx := fun a => match a with
  | ⟨0, _⟩ => ⟨k.val, k.isLt⟩
  | ⟨1, _⟩ => ⟨(j 1).val, (j 1).isLt⟩

abbrev d0 := dot_S2000x128_S128x256_S2000x256_1_0_0_1_n_n

theorem lhs0_0 (j : S2000x256.Idx) (q : d0.contr.Idx) : (d0.lhsIdx j q 0).val = (j 0).val := by
  unfold DotDims.lhsIdx
  rw [dif_neg (show ¬(0 : Fin S2000x128.rank) ∈ d0.lhsBatch by decide), dif_pos (show (0 : Fin S2000x128.rank) ∈ d0.lhsNonContracting by decide)]
  rfl
theorem lhs0_1 (j : S2000x256.Idx) (q : d0.contr.Idx) : (d0.lhsIdx j q 1).val = (q ⟨0, by decide⟩).val :=
  d0.lhsIdx_val_of_single rfl j q
theorem rhs0_0 (j : S2000x256.Idx) (q : d0.contr.Idx) : (d0.rhsIdx j q 0).val = (q ⟨0, by decide⟩).val :=
  d0.rhsIdx_val_of_single rfl j q
theorem rhs0_1 (j : S2000x256.Idx) (q : d0.contr.Idx) : (d0.rhsIdx j q 1).val = (j 1).val := by
  unfold DotDims.rhsIdx
  rw [dif_neg (show ¬(1 : Fin S128x256.rank) ∈ d0.rhsBatch by decide), dif_pos (show (1 : Fin S128x256.rank) ∈ d0.rhsNonContracting by decide)]
  rfl

/-- What a first-layer point stores, entry by entry: the block's row against the weights' column. -/
theorem pay0_apply (xb : Vec Ideal S2000x128 .f32) (w : Vec Ideal S128x256 .f32) (j : S2000x256.Idx) :
    k0_pay1 (F := Ideal) xb w j = ∑ k : Fin 128, xb (lrow0 j k) * w (rcol0 j k) := by
  unfold k0_pay1
  simp only [matmul]
  rw [Ideal.matmul_constant_zero_apply, ← Equiv.sum_comp (ValueIdx.contrEquiv1 d0 128 rfl rfl).symm]
  refine Finset.sum_congr rfl fun k _ => ?_
  have hk := ValueIdx.contrEquiv1_symm_val d0 128 rfl rfl k
  have el : d0.lhsIdx j ((ValueIdx.contrEquiv1 d0 128 rfl rfl).symm k) = lrow0 j k := funext fun a => Fin.ext (by
    match a with
    | ⟨0, _⟩ => exact lhs0_0 _ _
    | ⟨1, _⟩ => exact (lhs0_1 _ _).trans hk)
  have er : d0.rhsIdx j ((ValueIdx.contrEquiv1 d0 128 rfl rfl).symm k) = rcol0 j k := funext fun a => Fin.ext (by
    match a with
    | ⟨0, _⟩ => exact (rhs0_0 _ _).trans hk
    | ⟨1, _⟩ => exact rhs0_1 _ _)
  rw [el, er]
  rfl

/-! ## Second layer: a 2000 × 256 block times the 256 × 256 weights -/

/-- Entry (row of j, k) of a second-layer block. -/
abbrev lrow1 (j : S2000x256.Idx) (k : Fin 256) : S2000x256.Idx := fun a => match a with
  | ⟨0, _⟩ => ⟨(j 0).val, (j 0).isLt⟩
  | ⟨1, _⟩ => ⟨k.val, k.isLt⟩
/-- Entry (k, column of j) of the second-layer weights. -/
abbrev rcol1 (j : S2000x256.Idx) (k : Fin 256) : S256x256.Idx := fun a => match a with
  | ⟨0, _⟩ => ⟨k.val, k.isLt⟩
  | ⟨1, _⟩ => ⟨(j 1).val, (j 1).isLt⟩

abbrev d1 := dot_S2000x256_S256x256_S2000x256_1_0_0_1_n_n

theorem lhs1_0 (j : S2000x256.Idx) (q : d1.contr.Idx) : (d1.lhsIdx j q 0).val = (j 0).val := by
  unfold DotDims.lhsIdx
  rw [dif_neg (show ¬(0 : Fin S2000x256.rank) ∈ d1.lhsBatch by decide), dif_pos (show (0 : Fin S2000x256.rank) ∈ d1.lhsNonContracting by decide)]
  rfl
theorem lhs1_1 (j : S2000x256.Idx) (q : d1.contr.Idx) : (d1.lhsIdx j q 1).val = (q ⟨0, by decide⟩).val :=
  d1.lhsIdx_val_of_single rfl j q
theorem rhs1_0 (j : S2000x256.Idx) (q : d1.contr.Idx) : (d1.rhsIdx j q 0).val = (q ⟨0, by decide⟩).val :=
  d1.rhsIdx_val_of_single rfl j q
theorem rhs1_1 (j : S2000x256.Idx) (q : d1.contr.Idx) : (d1.rhsIdx j q 1).val = (j 1).val := by
  unfold DotDims.rhsIdx
  rw [dif_neg (show ¬(1 : Fin S256x256.rank) ∈ d1.rhsBatch by decide), dif_pos (show (1 : Fin S256x256.rank) ∈ d1.rhsNonContracting by decide)]
  rfl

/-- What a second-layer point stores, entry by entry. -/
theorem pay1_apply (xb : Vec Ideal S2000x256 .f32) (w : Vec Ideal S256x256 .f32) (j : S2000x256.Idx) :
    k1_pay1 (F := Ideal) xb w j = ∑ k : Fin 256, xb (lrow1 j k) * w (rcol1 j k) := by
  unfold k1_pay1
  simp only [matmul]
  rw [Ideal.matmul_constant_zero_apply, ← Equiv.sum_comp (ValueIdx.contrEquiv1 d1 256 rfl rfl).symm]
  refine Finset.sum_congr rfl fun k _ => ?_
  have hk := ValueIdx.contrEquiv1_symm_val d1 256 rfl rfl k
  have el : d1.lhsIdx j ((ValueIdx.contrEquiv1 d1 256 rfl rfl).symm k) = lrow1 j k := funext fun a => Fin.ext (by
    match a with
    | ⟨0, _⟩ => exact lhs1_0 _ _
    | ⟨1, _⟩ => exact (lhs1_1 _ _).trans hk)
  have er : d1.rhsIdx j ((ValueIdx.contrEquiv1 d1 256 rfl rfl).symm k) = rcol1 j k := funext fun a => Fin.ext (by
    match a with
    | ⟨0, _⟩ => exact (rhs1_0 _ _).trans hk
    | ⟨1, _⟩ => exact rhs1_1 _ _)
  rw [el, er, shapeCast_self]
  rfl

end Cert.KernelIdeal.BlockProduct

end
-- ==== Proof.HostProduct.lean ====
/-
  The two dense products of the reference, read at an index.

  The reference multiplies the whole node array by the whole weight matrix on the host. On extended reals entry
  (r, q) of X · W is  ∑ₖ X(r, k) · W(k, q)  — no rounding and no order of summation is left in it. Stated here for
  both layers over arbitrary operands (the second layer's left operand is the first layer's output, whatever it is).
-/
import proofs.«160929_j9560597201316_1_alg».proof.Proof.Gen.ReferenceIdeal
import Idealize.ShloMosaic.Lib.ValueIdx
import Idealize.ShloMosaic.Lib.Pipeline.Value
import Idealize.ShloMosaic.PureOps.Ideal.Laws

noncomputable section

namespace Cert.ReferenceIdeal.HostProduct

open Cert.ReferenceIdeal Cert.ReferenceIdeal.Gen Idealize.ShloMosaic Idealize.ShloMosaic.TcCoe Idealize.SL.Sem

/-! ## First layer: node features (50000 × 128) times weights (128 × 256) -/

abbrev e0 := dot_S50000x128_S128x256_S50000x256_1_0_0_1_n_n

abbrev prod0 (x : FVec Ideal S50000x128 .f32) (w : FVec Ideal S128x256 .f32) : FVec Ideal S50000x256 .f32 :=
  Host.dotGeneral (F := Ideal) e0 none x w

/-- Entry (row of i, k) of the node features. -/
abbrev xrow0 (i : S50000x256.Idx) (k : Fin 128) : S50000x128.Idx := fun a => match a with
  | ⟨0, _⟩ => ⟨(i 0).val, (i 0).isLt⟩
  | ⟨1, _⟩ => ⟨k.val, k.isLt⟩
/-- Entry (k, column of i) of the first-layer weights. -/
abbrev wcol0 (i : S50000x256.Idx) (k : Fin 128) : S128x256.Idx := fun a => match a with
  | ⟨0, _⟩ => ⟨k.val, k.isLt⟩
  | ⟨1, _⟩ => ⟨(i 1).val, (i 1).isLt⟩

theorem lhs0_0 (i : S50000x256.Idx) (q : e0.contr.Idx) : (e0.lhsIdx i q 0).val = (i 0).val := by
  unfold DotDims.lhsIdx
  rw [dif_neg (show ¬(0 : Fin S50000x128.rank) ∈ e0.lhsBatch by decide), dif_pos (show (0 : Fin S50000x128.rank) ∈ e0.lhsNonContracting by decide)]
  rfl
theorem lhs0_1 (i : S50000x256.Idx) (q : e0.contr.Idx) : (e0.lhsIdx i q 1).val = (q ⟨0, by decide⟩).val :=
  e0.lhsIdx_val_of_single rfl i q
theorem rhs0_0 (i : S50000x256.Idx) (q : e0.contr.Idx) : (e0.rhsIdx i q 0).val = (q ⟨0, by decide⟩).val :=
  e0.rhsIdx_val_of_single rfl i q
theorem rhs0_1 (i : S50000x256.Idx) (q : e0.contr.Idx) : (e0.rhsIdx i q 1).val = (i 1).val := by
  unfold DotDims.rhsIdx
  rw [dif_neg (show ¬(1 : Fin S128x256.rank) ∈ e0.rhsBatch by decide), dif_pos (show (1 : Fin S128x256.rank) ∈ e0.rhsNonContracting by decide)]
  rfl

/-- Entry i of the first product: row (i 0) of the features against column (i 1) of the weights. -/
theorem prod0_apply (x : FVec Ideal S50000x128 .f32) (w : FVec Ideal S128x256 .f32)
    (i : S50000x256.Idx) : prod0 x w i = ∑ k : Fin 128, x (xrow0 i k) * w (wcol0 i k) := by
  simp only [prod0, Host.dotGeneral]
  rw [Ideal.dotGeneral_apply, ← Equiv.sum_comp (ValueIdx.contrEquiv1 e0 128 rfl rfl).symm]
  refine Finset.sum_congr rfl fun k _ => ?_
  have hk := ValueIdx.contrEquiv1_symm_val e0 128 rfl rfl k
  have el : e0.lhsIdx i ((ValueIdx.contrEquiv1 e0 128 rfl rfl).symm k) = xrow0 i k := funext fun a => Fin.ext (by
    match a with
    | ⟨0, _⟩ => exact lhs0_0 _ _
    | ⟨1, _⟩ => exact (lhs0_1 _ _).trans hk)
  have er : e0.rhsIdx i ((ValueIdx.contrEquiv1 e0 128 rfl rfl).symm k) = wcol0 i k := funext fun a => Fin.ext (by
    match a with
    | ⟨0, _⟩ => exact (rhs0_0 _ _).trans hk
    | ⟨1, _⟩ => exact rhs0_1 _ _)
  rw [el, er]

/-! ## Second layer: hidden features (50000 × 256) times weights (256 × 256) -/

abbrev e1 := dot_S50000x256_S256x256_S50000x256_1_0_0_1_n_n

abbrev prod1 (h : FVec Ideal S50000x256 .f32) (w : FVec Ideal S256x256 .f32) : FVec Ideal S50000x256 .f32 :=
  Host.dotGeneral (F := Ideal) e1 none h w

/-- Entry (row of i, k) of the hidden features. -/
abbrev xrow1 (i : S50000x256.Idx) (k : Fin 256) : S50000x256.Idx := fun a => match a with
  | ⟨0, _⟩ => ⟨(i 0).val, (i 0).isLt⟩
  | ⟨1, _⟩ => ⟨k.val, k.isLt⟩
/-- Entry (k, column of i) of the second-layer weights. -/
abbrev wcol1 (i : S50000x256.Idx) (k : Fin 256) : S256x256.Idx := fun a => match a with
  | ⟨0, _⟩ => ⟨k.val, k.isLt⟩
  | ⟨1, _⟩ => ⟨(i 1).val, (i 1).isLt⟩

theorem lhs1_0 (i : S50000x256.Idx) (q : e1.contr.Idx) : (e1.lhsIdx i q 0).val = (i 0).val := by
  unfold DotDims.lhsIdx
  rw [dif_neg (show ¬(0 : Fin S50000x256.rank) ∈ e1.lhsBatch by decide), dif_pos (show (0 : Fin S50000x256.rank) ∈ e1.lhsNonContracting by decide)]
  rfl
theorem lhs1_1 (i : S50000x256.Idx) (q : e1.contr.Idx) : (e1.lhsIdx i q 1).val = (q ⟨0, by decide⟩).val :=
  e1.lhsIdx_val_of_single rfl i q
theorem rhs1_0 (i : S50000x256.Idx) (q : e1.contr.Idx) : (e1.rhsIdx i q 0).val = (q ⟨0, by decide⟩).val :=
  e1.rhsIdx_val_of_single rfl i q
theorem rhs1_1 (i : S50000x256.Idx) (q : e1.contr.Idx) : (e1.rhsIdx i q 1).val = (i 1).val := by
  unfold DotDims.rhsIdx
  rw [dif_neg (show ¬(1 : Fin S256x256.rank) ∈ e1.rhsBatch by decide), dif_pos (show (1 : Fin S256x256.rank) ∈ e1.rhsNonContracting by decide)]
  rfl

/-- Entry i of the second product: row (i 0) of the hidden features against column (i 1) of the weights. -/
theorem prod1_apply (h : FVec Ideal S50000x256 .f32) (w : FVec Ideal S256x256 .f32)
    (i : S50000x256.Idx) : prod1 h w i = ∑ k : Fin 256, h (xrow1 i k) * w (wcol1 i k) := by
  simp only [prod1, Host.dotGeneral]
  rw [Ideal.dotGeneral_apply, ← Equiv.sum_comp (ValueIdx.contrEquiv1 e1 256 rfl rfl).symm]
  refine Finset.sum_congr rfl fun k _ => ?_
  have hk := ValueIdx.contrEquiv1_symm_val e1 256 rfl rfl k
  have el : e1.lhsIdx i ((ValueIdx.contrEquiv1 e1 256 rfl rfl).symm k) = xrow1 i k := funext fun a => Fin.ext (by
    match a with
    | ⟨0, _⟩ => exact lhs1_0 _ _
    | ⟨1, _⟩ => exact (lhs1_1 _ _).trans hk)
  have er : e1.rhsIdx i ((ValueIdx.contrEquiv1 e1 256 rfl rfl).symm k) = wcol1 i k := funext fun a => Fin.ext (by
    match a with
    | ⟨0, _⟩ => exact (rhs1_0 _ _).trans hk
    | ⟨1, _⟩ => exact rhs1_1 _ _)
  rw [el, er]

end Cert.ReferenceIdeal.HostProduct

namespace Cert.KernelIdeal.BlockProduct

/-- The zero offsets of a whole-block load or store, however they are spelt. -/
theorem zero_offsets : (![0, 0] : Fin 2 → Nat) = fun _ => 0 := funext fun a => by fin_cases a <;> rfl

end Cert.KernelIdeal.BlockProduct

end
-- ==== Proof.FirstProduct.lean ====
/-
  The first dense layer as one array: after its 25 grid points the output array is the whole product X · W1.

  Grid point t holds rows 2000·t … 2000·t + 1999 of the node features and all of W1, and writes back the same rows
  of the output. Entry (p, q) of what it writes is ∑ₖ X(2000·t + p, k) · W1(k, q): that is entry (2000·t + p, q) of the
  host product of the arrays the region found. Every row r lies in exactly the block t = r / 2000, so the blocks
  cover the output array and it ends holding the product. Stated for any contents V of the buffers at the region's
  entry.
-/
import proofs.«160929_j9560597201316_1_alg».proof.Proof.Gen.KernelIdeal.Frame
import proofs.«160929_j9560597201316_1_alg».proof.Proof.BlockProduct
import proofs.«160929_j9560597201316_1_alg».proof.Proof.HostProduct

set_option maxRecDepth 16384

noncomputable section

open Idealize.ShloMosaic Idealize.ShloMosaic.TcCoe Idealize.SL.Sem
open Idealize.ShloMosaic.Pipeline (Dat)

namespace Cert.KernelIdeal.FirstProduct

open Cert.KernelIdeal Cert.KernelIdeal.Gen Cert.KernelIdeal.BlockProduct
open Cert.ReferenceIdeal.HostProduct (prod0 prod0_apply xrow0 wcol0)

variable (V : (c : Dev nD) → (b : Ref sig .tc) → Buf (Elt Ideal) ((c : Thread nD τ).loc b))

/-- The printed index maps over the grid: the feature window and the output window sit at block row t, the weight
    window at the origin. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the entry arrays. -/
theorem flushed_eq (c : Dev nD) (t : Fin cfg0.N) :
    (dat0 V c).flushed 2 t = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x256) zero_offsets]
  obtain ⟨e00, e01, e10, e11, e20, e21⟩ := index_maps t
  funext y
  show k0_pay1 (iblk0 V c 0 t) (iblk0 V c 1 t) y = prod0 (V c main_arg0) (V c main_arg2) (((cfg0.win 2).blk t).view.emb y)
  refine (pay0_apply (iblk0 V c 0 t) (iblk0 V c 1 t) y).trans ?_
  refine Eq.trans ?_ (prod0_apply (V c main_arg0) (V c main_arg2) (((cfg0.win 2).blk t).view.emb y)).symm
  refine Finset.sum_congr rfl fun k _ => ?_
  have hl : iblk0 V c 0 t (lrow0 y k) = V c main_arg0 (xrow0 (((cfg0.win 2).blk t).view.emb y) k) := by
    show V c main_arg0 (((cfg0.win 0).blk t).view.emb (lrow0 y k)) = _
    refine congrArg (V c main_arg0) (funext fun a => Fin.ext ?_)
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 128 + 1 * k.val = k.val; omega
  have hr : iblk0 V c 1 t (rcol0 y k) = V c main_arg2 (wcol0 (((cfg0.win 2).blk t).view.emb y) k) := by
    show V c main_arg2 (((cfg0.win 1).blk t).view.emb (rcol0 y k)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 256 + 1 * (y 1).val = win0_2.index t (1 : Fin 2) * 256 + 1 * (y 1).val; omega
  rw [hl, hr]

/-- An index of the output array is in point t's block iff each coordinate is in the block's range on its axis. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v31).slice (win0_2.rect t)).set ↔ _
  rw [View.set_slice_whole, Rect.mem_set_unit]
  exact Iff.rfl

/-- Row r of the output is written back by point r / 2000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨-, -, -, -, e20, e21⟩ := index_maps ⟨(i 0).val / 2000, ht⟩
  refine ⟨⟨(i 0).val / 2000, ht⟩, flush0_2 _, ?_⟩
  rw [mem_block]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, ht⟩ (1 : Fin 2) * 256 ≤ (i 1).val ∧ (i 1).val < win0_2.index ⟨(i 0).val / 2000, ht⟩ (1 : Fin 2) * 256 + 256
    rw [e21]; omega

/-- The output array after the region: the product of the feature array and the weight array the region found. -/
theorem final (c : Dev nD) : (dat0 V c).arrAt 2 cfg0.N = prod0 (V c main_arg0) (V c main_arg2) :=
  (dat0 V c).arrAt_eq_of_cover 2 (prod0 (V c main_arg0) (V c main_arg2)) (fun t _ => flushed_eq V c t) cover

end Cert.KernelIdeal.FirstProduct

end
-- ==== Proof.SecondProduct.lean ====
/-
  The second dense layer as one array: after its 25 grid points the output array is the whole product H · W2.

  As for the first layer: grid point t holds rows 2000·t … 2000·t + 1999 of the hidden features H (the first layer's
  output after aggregation, bias and the rectifier, as the region finds it) and all of W2, and writes back the same
  rows of the output, entry (p, q) being ∑ₖ H(2000·t + p, k) · W2(k, q), k over the 256 hidden columns. The blocks
  cover the output array, so it ends holding the host product of the two arrays. Stated for any contents V of the
  buffers at the region's entry.
-/
import proofs.«160929_j9560597201316_1_alg».proof.Proof.Gen.KernelIdeal.Frame
import proofs.«160929_j9560597201316_1_alg».proof.Proof.BlockProduct
import proofs.«160929_j9560597201316_1_alg».proof.Proof.HostProduct

set_option maxRecDepth 16384

noncomputable section

open Idealize.ShloMosaic Idealize.ShloMosaic.TcCoe Idealize.SL.Sem
open Idealize.ShloMosaic.Pipeline (Dat)

namespace Cert.KernelIdeal.SecondProduct

open Cert.KernelIdeal Cert.KernelIdeal.Gen Cert.KernelIdeal.BlockProduct
open Cert.ReferenceIdeal.HostProduct (prod1 prod1_apply xrow1 wcol1)

variable (V : (c : Dev nD) → (b : Ref sig .tc) → Buf (Elt Ideal) ((c : Thread nD τ).loc b))

/-- The printed index maps over the grid: the hidden-feature window and the output window sit at block row t, the
    weight window at the origin. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the entry arrays. -/
theorem flushed_eq (c : Dev nD) (t : Fin cfg1.N) :
    (dat1 V c).flushed 2 t = ((cfg1.win 2).blk t).view.read (Elt Ideal) (prod1 (V c main_v47) (V c main_arg4)) := by
  show (cfg1.win 2).cut (grid1.coords t) ((dat1 V c).after 2 t) = _
  rw [after1_2]
  unfold out1_2
  rw [View.canon_unit_zero zero_offsets]
  simp only [View.ld_unit_zero (S := S2000x256) zero_offsets, View.ld_unit_zero (S := S256x256) zero_offsets]
  obtain ⟨e00, e01, e10, e11, e20, e21⟩ := index_maps t
  funext y
  show k1_pay1 (iblk1 V c 0 t) (iblk1 V c 1 t) y = prod1 (V c main_v47) (V c main_arg4) (((cfg1.win 2).blk t).view.emb y)
  refine (pay1_apply (iblk1 V c 0 t) (iblk1 V c 1 t) y).trans ?_
  refine Eq.trans ?_ (prod1_apply (V c main_v47) (V c main_arg4) (((cfg1.win 2).blk t).view.emb y)).symm
  refine Finset.sum_congr rfl fun k _ => ?_
  have hl : iblk1 V c 0 t (lrow1 y k) = V c main_v47 (xrow1 (((cfg1.win 2).blk t).view.emb y) k) := by
    show V c main_v47 (((cfg1.win 0).blk t).view.emb (lrow1 y k)) = _
    refine congrArg (V c main_v47) (funext fun a => Fin.ext ?_)
    match a with
    | ⟨0, _⟩ => show win1_0.index t (0 : Fin 2) * 2000 + 1 * (y 0).val = win1_2.index t (0 : Fin 2) * 2000 + 1 * (y 0).val; omega
    | ⟨1, _⟩ => show win1_0.index t (1 : Fin 2) * 256 + 1 * k.val = k.val; omega
  have hr : iblk1 V c 1 t (rcol1 y k) = V c main_arg4 (wcol1 (((cfg1.win 2).blk t).view.emb y) k) := by
    show V c main_arg4 (((cfg1.win 1).blk t).view.emb (rcol1 y k)) = _
    refine congrArg (V c main_arg4) (funext fun a => Fin.ext ?_)
    match a with
    | ⟨0, _⟩ => show win1_1.index t (0 : Fin 2) * 256 + 1 * k.val = k.val; omega
    | ⟨1, _⟩ => show win1_1.index t (1 : Fin 2) * 256 + 1 * (y 1).val = win1_2.index t (1 : Fin 2) * 256 + 1 * (y 1).val; omega
  rw [hl, hr]

/-- An index of the output array is in point t's block iff each coordinate is in the block's range on its axis. -/
theorem mem_block (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v48).slice (win1_2.rect t)).set ↔ _
  rw [View.set_slice_whole, Rect.mem_set_unit]
  exact Iff.rfl

/-- Row r of the output is written back by point r / 2000. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  have ht : (i 0).val / 2000 < cfg1.N := by rw [hN]; omega
  obtain ⟨-, -, -, -, e20, e21⟩ := index_maps ⟨(i 0).val / 2000, ht⟩
  refine ⟨⟨(i 0).val / 2000, ht⟩, flush1_2 _, ?_⟩
  rw [mem_block]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win1_2.index ⟨(i 0).val / 2000, ht⟩ (1 : Fin 2) * 256 ≤ (i 1).val ∧ (i 1).val < win1_2.index ⟨(i 0).val / 2000, ht⟩ (1 : Fin 2) * 256 + 256
    rw [e21]; omega

/-- The output array after the region: the product of the hidden-feature array and the weight array the region found. -/
theorem final (c : Dev nD) : (dat1 V c).arrAt 2 cfg1.N = prod1 (V c main_v47) (V c main_arg4) :=
  (dat1 V c).arrAt_eq_of_cover 2 (prod1 (V c main_v47) (V c main_arg4)) (fun t _ => flushed_eq V c t) cover

end Cert.KernelIdeal.SecondProduct

end
-- ==== Proof.Layer.lean ====
/-
  The graph convolution as one function of the arguments, in the reference's own operations.

  With e the 2 × 800000 edge array, both programs form
    s = (row 0 of e) ++ (0 … 49999)      d = (row 1 of e) ++ (0 … 49999)          (every node gets a self-loop)
    deg = scatter-add of ones at d        dinv = deg > 0 ? deg^(-1/2) : 0
    nrm(j) = dinv(s j) · dinv(d j)                                                 (850000 edge weights)
  and one layer, from a dense product P (50000 × 256) and a bias b, is
    layer(P, b) = max(0, scatter-add at d of nrm(j) · P(s j, ·)  +  b).
  The whole network is layer(layer(X · W1, b1) · W2, b2). A negative index is wrapped by adding 50000 before a gather,
  as jnp indexing does; scatter-add and gather are the host's own, never opened here: the two programs apply them to
  the same operands, so only the two dense products differ in how they are computed.
  Each step is stated over the arrays it reads (degOf, whereOf, nrmColOf, preact, relu), so that it can be met
  wherever a program computes it from buffers, and then at the arguments (deg, dinv, nrmCol, layer, network).
-/
import proofs.«160929_j9560597201316_1_alg».proof.Proof.ReferenceRun
import proofs.«160929_j9560597201316_1_alg».proof.Proof.HostProduct

set_option maxRecDepth 16384

noncomputable section

namespace Cert.ReferenceIdeal.Layer

open Cert.ReferenceIdeal Cert.ReferenceIdeal.Gen Idealize.ShloMosaic Idealize.ShloMosaic.TcCoe Idealize.SL.Sem
open Cert.ReferenceIdeal.HostProduct (prod0 prod1)

abbrev Edges := (⟨S2x800000, .i32⟩ : BufTy).Contents (Elt Ideal)
abbrev Ends := (⟨S850000, .i32⟩ : BufTy).Contents (Elt Ideal)
abbrev Hidden := FVec Ideal S50000x256 .f32

/-- Source ends: row 0 of the edge array, then every node once. -/
def src (e : Edges) : Ends :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Destination ends: row 1 of the edge array, then every node once. -/
def dst (e : Edges) : Ends :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative index counts from the end. -/
def wrap (v : Ends) : Ends :=
  select (cmpi .slt v (broadcastInDim S850000 ![] bcast_S_S850000 (constantI S_ 32 0#32))) (addi v (broadcastInDim S850000 ![] bcast_S_S850000 (constantI S_ 32 50000#32))) v

/-- In-degree: ones added up at the ends d. -/
def degOf (d : Ends) : FVec Ideal S50000 .f32 :=
  Host.scatterAdd (F := Ideal) scatter_S50000_S850000x1_S850000_n_0_0_1 (broadcastInDim S50000 ![] bcast_S_S50000 (constant (F := Ideal) S_ .f32 0x00000000#32)) (broadcastInDim S850000x1 ![0] bcast_S850000_S850000x1_0 d) (broadcastInDim S850000 ![] bcast_S_S850000 (constant (F := Ideal) S_ .f32 0x3F800000#32))

/-- In-degree with self-loops of the graph of e. -/
def deg (e : Edges) : FVec Ideal S50000 .f32 := degOf (dst e)

/-- a where the mask c holds, the scalar z elsewhere. -/
def whereOf (c : IVec S50000 1) (a : FVec Ideal S50000 .f32) (z : FVec Ideal S_ .f32) : FVec Ideal S50000 .f32 :=
  select c a (broadcastInDim S50000 ![] bcast_S_S50000 (id z))

/-- deg^(-1/2) where the degree is positive, 0 elsewhere. -/
def dinv (e : Edges) : FVec Ideal S50000 .f32 :=
  whereOf (cmpf (F := Ideal) .ogt (deg e) (broadcastInDim S50000 ![] bcast_S_S50000 (constant (F := Ideal) S_ .f32 0x00000000#32))) (Host.rsqrt (F := Ideal) (deg e)) (constant (F := Ideal) S_ .f32 0x00000000#32)

/-- The edge weights v(s j) · v(d j) as a column (850000 × 1), for a node array v and end arrays s, d. -/
def nrmColOf (v : FVec Ideal S50000 .f32) (s d : Ends) : FVec Ideal S850000x1 .f32 :=
  broadcastInDim S850000x1 ![0] bcast_S850000_S850000x1_0 (mulf (F := Ideal) (Host.gather gather_S50000_S850000x1_S850000_n_0_n_n_0_1_1 v (broadcastInDim S850000x1 ![0] bcast_S850000_S850000x1_0 (wrap s))) (Host.gather gather_S50000_S850000x1_S850000_n_0_n_n_0_1_1 v (broadcastInDim S850000x1 ![0] bcast_S850000_S850000x1_0 (wrap d))))

/-- The edge weights dinv(s j) · dinv(d j) of the graph of e. -/
def nrmCol (e : Edges) : FVec Ideal S850000x1 .f32 := nrmColOf (dinv e) (src e) (dst e)

/-- Aggregation and bias: the rows of p gathered at the source ends, scaled by the weight column n, added up at the
    destination ends, plus b on every row. -/
def preact (s d : Ends) (n : FVec Ideal S850000x1 .f32) (p : Hidden) (b : FVec Ideal S256 .f32) : Hidden :=
  addf (F := Ideal) (Host.scatterAdd (F := Ideal) scatter_S50000x256_S850000x1_S850000x256_1_0_0_1 (broadcastInDim S50000x256 ![] bcast_S_S50000x256 (constant (F := Ideal) S_ .f32 0x00000000#32)) (broadcastInDim S850000x1 ![0] bcast_S850000_S850000x1_0 d) (mulf (F := Ideal) (broadcastInDim S850000x256 ![0, 1] bcast_S850000x1_S850000x256_0_1 n) (Host.gather gather_S50000x256_S850000x1_S850000x256_1_0_n_n_0_1_1256 p (broadcastInDim S850000x1 ![0] bcast_S850000_S850000x1_0 (wrap s))))) (broadcastInDim S50000x256 ![0, 1] bcast_S1x256_S50000x256_0_1 (broadcastInDim S1x256 ![1] bcast_S256_S1x256_1 b))

/-- The rectifier. -/
def relu (x : Hidden) : Hidden :=
  maximumf (F := Ideal) x (broadcastInDim S50000x256 ![] bcast_S_S50000x256 (constant (F := Ideal) S_ .f32 0x00000000#32))

/-- The part of a layer after its dense product p. -/
def aggregate (s d : Ends) (n : FVec Ideal S850000x1 .f32) (p : Hidden) (b : FVec Ideal S256 .f32) : Hidden :=
  relu (preact s d n p b)

/-- One layer after its dense product p: aggregate over the graph of e. -/
def layer (e : Edges) (p : Hidden) (b : FVec Ideal S256 .f32) : Hidden :=
  aggregate (src e) (dst e) (nrmCol e) p b

/-- The two layers. -/
def network (x : FVec Ideal S50000x128 .f32) (e : Edges) (w1 : FVec Ideal S128x256 .f32) (b1 : FVec Ideal S256 .f32)
    (w2 : FVec Ideal S256x256 .f32) (b2 : FVec Ideal S256 .f32) : Hidden :=
  layer e (prod1 (layer e (prod0 x w1) b1) w2) b2

/-- The reference's result term is the network of its arguments: the term is these definitions unfolded. -/
theorem reference_eq (m : (ℓ : Loc nD τ sig) → Buf (Elt Ideal) ℓ) (c : Dev nD) :
    Cert.ReferenceIdeal.ValueP.res_main_v91 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v91 network layer aggregate relu preact nrmCol nrmColOf dinv whereOf deg degOf wrap src dst
  rfl

end Cert.ReferenceIdeal.Layer

end
-- ==== Proof.Stretches.lean ====
/-
  What each stretch of the kernel program's host operations computes, from whatever it finds in the buffers it reads.

  Stated over an arbitrary valuation V of the buffers at the stretch's entry. The stretches, in @main's order:
    before the first region — the two end arrays, the in-degree's positivity mask and inverse root, a zero scalar;
      then (the select jnp.where outlines) the inverse root where positive and zero elsewhere; then the weight column;
    between the regions — aggregation and bias over the first region's output; then the rectifier;
    after the second region — aggregation and bias over its output; then the rectifier.
  Each is the corresponding step of the specification: the stretch's operations read off one by one.
-/
import proofs.«160929_j9560597201316_1_alg».proof.Proof.Gen.KernelIdeal.Frame
import proofs.«160929_j9560597201316_1_alg».proof.Proof.Layer
import Idealize.ShloMosaic.Lib.StableHlo.Run

set_option maxRecDepth 16384

noncomputable section

namespace Cert.KernelIdeal.Stretches

open Cert.KernelIdeal Cert.KernelIdeal.Gen Idealize.ShloMosaic Idealize.ShloMosaic.TcCoe Idealize.SL.Sem Idealize.ShloMosaic.StableHlo
open Cert.ReferenceIdeal.Layer (src dst degOf whereOf nrmColOf preact relu)

variable (V : Valuation τ sig (Elt Ideal))

/-! ## Before the first region -/

set_option maxHeartbeats 1000000 in
/-- The degree's positivity mask, from the edge array. -/
theorem pos_read : StableHlo.after (hostOps0 (F := Ideal)) V (Proc.devRef .tc main_v12)
    = cmpf (F := Ideal) .ogt (degOf (dst (V (Proc.devRef .tc main_arg1)))) (broadcastInDim S50000 ![] bcast_S_S50000 (constant (F := Ideal) S_ .f32 0x00000000#32)) := by
  simp only [hostOps0]
  after_results
  rfl

set_option maxHeartbeats 1000000 in
/-- The degree's inverse root, from the edge array. -/
theorem rsqrt_read : StableHlo.after (hostOps0 (F := Ideal)) V (Proc.devRef .tc main_v13)
    = Host.rsqrt (F := Ideal) (degOf (dst (V (Proc.devRef .tc main_arg1)))) := by
  simp only [hostOps0]
  after_results
  rfl

/-- The zero scalar the select falls back to. -/
theorem zero_read : StableHlo.after (hostOps0 (F := Ideal)) V (Proc.devRef .tc main_cst_2)
    = constant (F := Ideal) S_ .f32 0x00000000#32 := by
  simp only [hostOps0]
  after_results

/-- The outlined select: the inverse root where the mask holds, the scalar elsewhere. -/
theorem where_read : StableHlo.after (hostOps0_1 (F := Ideal)) V (Proc.devRef .tc main_v14)
    = whereOf (V (Proc.devRef .tc main_v12)) (V (Proc.devRef .tc main_v13)) (V (Proc.devRef .tc main_cst_2)) := by
  simp only [hostOps0_1]
  after_results
  rfl

/-- The weight column, from the inverse-root array and the two end arrays. -/
theorem weights_read : StableHlo.after (hostOps0_2 (F := Ideal)) V (Proc.devRef .tc main_v30)
    = nrmColOf (V (Proc.devRef .tc main_v14)) (V (Proc.devRef .tc main_v5)) (V (Proc.devRef .tc main_v6)) := by
  conv_lhs =>
    simp only [hostOps0_2]
    tactic => after_results_simp
  rfl

/-! ## Between the regions -/

/-- Aggregation and bias over the first region's output. -/
theorem preact1_read : StableHlo.after (hostOps1 (F := Ideal)) V (Proc.devRef .tc main_v46)
    = preact (V (Proc.devRef .tc main_v5)) (V (Proc.devRef .tc main_v6)) (V (Proc.devRef .tc main_v30)) (V (Proc.devRef .tc main_v31)) (V (Proc.devRef .tc main_arg3)) := by
  conv_lhs =>
    simp only [hostOps1]
    tactic => after_results_simp
  rfl

/-- The rectifier. -/
theorem relu1_read : StableHlo.after (hostOps1_1 (F := Ideal)) V (Proc.devRef .tc main_v47) = relu (V (Proc.devRef .tc main_v46)) := by
  simp only [hostOps1_1]
  after_results
  rfl

/-! ## After the second region -/

/-- Aggregation and bias over the second region's output. -/
theorem preact2_read : StableHlo.after (hostOps2 (F := Ideal)) V (Proc.devRef .tc main_v63)
    = preact (V (Proc.devRef .tc main_v5)) (V (Proc.devRef .tc main_v6)) (V (Proc.devRef .tc main_v30)) (V (Proc.devRef .tc main_v48)) (V (Proc.devRef .tc main_arg5)) := by
  conv_lhs =>
    simp only [hostOps2]
    tactic => after_results_simp
  rfl

/-- The rectifier. -/
theorem relu2_read : StableHlo.after (hostOps2_1 (F := Ideal)) V (Proc.devRef .tc main_v64) = relu (V (Proc.devRef .tc main_v63)) := by
  simp only [hostOps2_1]
  after_results
  rfl

end Cert.KernelIdeal.Stretches

end
-- ==== Proof.KernelValue.lean ====
/-
  The kernel program's result as the network of its arguments.

  The buffer contents at the boundaries of @main's nine segments are a fold from the launch memory. Followed here for
  the few buffers that matter: the two end arrays s and d and the edge-weight column, computed once before the first
  region and read again after each region (no later operation and no region writes them); the biases and weights,
  never written; the first region's output, which is X · W1; the hidden features after the first aggregation, which
  the second region reads; the second region's output, H · W2; and the result after the second aggregation.
  A stretch of host operations is read off operation by operation; a region leaves every buffer but its output array
  as it found it.
-/
import proofs.«160929_j9560597201316_1_alg».proof.Proof.Gen.KernelIdeal.Frame
import proofs.«160929_j9560597201316_1_alg».proof.Proof.FirstProduct
import proofs.«160929_j9560597201316_1_alg».proof.Proof.SecondProduct
import proofs.«160929_j9560597201316_1_alg».proof.Proof.Layer
import proofs.«160929_j9560597201316_1_alg».proof.Proof.Stretches
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem Idealize.ShloMosaic.StableHlo
open Cert.ReferenceIdeal.Layer (src dst dinv nrmCol layer network)
open Cert.KernelIdeal.Stretches
open Cert.ReferenceIdeal.HostProduct (prod0 prod1)

variable (m : (ℓ : Loc nD τ sig) → Buf (Elt Ideal) ℓ) (ρ : Dev nD → PrngReg) (c : Dev nD)

/-- The arguments as launched: node features, edges, and each layer's weights and bias. -/
abbrev feat := m ((c.tc : Thread nD τ).loc main_arg0)
abbrev edges := m ((c.tc : Thread nD τ).loc main_arg1)
abbrev w1 := m ((c.tc : Thread nD τ).loc main_arg2)
abbrev b1 := m ((c.tc : Thread nD τ).loc main_arg3)
abbrev w2 := m ((c.tc : Thread nD τ).loc main_arg4)
abbrev b2 := m ((c.tc : Thread nD τ).loc main_arg5)

/-! ## At the first region's entry: what the host operations before it computed -/

theorem entry0_src : W3 m ρ c (Proc.devRef .tc main_v5) = src (edges m c) := by
  show StableHlo.after hostOps0_2 (StableHlo.after hostOps0_1 (StableHlo.after hostOps0 (W0 m ρ c))) (Proc.devRef .tc main_v5) = _
  simp only [hostOps0, hostOps0_1, hostOps0_2]
  after_results
  rfl

theorem entry0_dst : W3 m ρ c (Proc.devRef .tc main_v6) = dst (edges m c) := by
  show StableHlo.after hostOps0_2 (StableHlo.after hostOps0_1 (StableHlo.after hostOps0 (W0 m ρ c))) (Proc.devRef .tc main_v6) = _
  simp only [hostOps0, hostOps0_1, hostOps0_2]
  after_results
  rfl

/-- After the first two stretches the source ends are in place. -/
theorem mid_src : W2 m ρ c (Proc.devRef .tc main_v5) = src (edges m c) := by
  show StableHlo.after hostOps0_1 (StableHlo.after hostOps0 (W0 m ρ c)) (Proc.devRef .tc main_v5) = _
  simp only [hostOps0, hostOps0_1]
  after_results
  rfl

/-- And the destination ends. -/
theorem mid_dst : W2 m ρ c (Proc.devRef .tc main_v6) = dst (edges m c) := by
  show StableHlo.after hostOps0_1 (StableHlo.after hostOps0 (W0 m ρ c)) (Proc.devRef .tc main_v6) = _
  simp only [hostOps0, hostOps0_1]
  after_results
  rfl

/-- And the inverse root of the degree: the select over the mask, the inverse root and the zero scalar the first
    stretch left. -/
theorem mid_dinv : W2 m ρ c (Proc.devRef .tc main_v14) = dinv (edges m c) := by
  refine (where_read (W1 m ρ c)).trans ?_
  rw [show W1 m ρ c (Proc.devRef .tc main_v12) = _ from pos_read (W0 m ρ c),
    show W1 m ρ c (Proc.devRef .tc main_v13) = _ from rsqrt_read (W0 m ρ c),
    show W1 m ρ c (Proc.devRef .tc main_cst_2) = _ from zero_read (W0 m ρ c)]
  rfl

theorem entry0_nrm : W3 m ρ c (Proc.devRef .tc main_v30) = nrmCol (edges m c) := by
  refine (weights_read (W2 m ρ c)).trans ?_
  rw [mid_dinv m ρ c, mid_src m ρ c, mid_dst m ρ c]
  rfl

theorem entry0_feat : W3 m ρ c (Proc.devRef .tc main_arg0) = feat m c := by
  show StableHlo.after hostOps0_2 (StableHlo.after hostOps0_1 (StableHlo.after hostOps0 (W0 m ρ c))) (Proc.devRef .tc main_arg0) = _
  simp only [hostOps0, hostOps0_1, hostOps0_2]
  after_results

theorem entry0_w1 : W3 m ρ c (Proc.devRef .tc main_arg2) = w1 m c := by
  show StableHlo.after hostOps0_2 (StableHlo.after hostOps0_1 (StableHlo.after hostOps0 (W0 m ρ c))) (Proc.devRef .tc main_arg2) = _
  simp only [hostOps0, hostOps0_1, hostOps0_2]
  after_results

theorem entry0_b1 : W3 m ρ c (Proc.devRef .tc main_arg3) = b1 m c := by
  show StableHlo.after hostOps0_2 (StableHlo.after hostOps0_1 (StableHlo.after hostOps0 (W0 m ρ c))) (Proc.devRef .tc main_arg3) = _
  simp only [hostOps0, hostOps0_1, hostOps0_2]
  after_results

theorem entry0_w2 : W3 m ρ c (Proc.devRef .tc main_arg4) = w2 m c := by
  show StableHlo.after hostOps0_2 (StableHlo.after hostOps0_1 (StableHlo.after hostOps0 (W0 m ρ c))) (Proc.devRef .tc main_arg4) = _
  simp only [hostOps0, hostOps0_1, hostOps0_2]
  after_results

theorem entry0_b2 : W3 m ρ c (Proc.devRef .tc main_arg5) = b2 m c := by
  show StableHlo.after hostOps0_2 (StableHlo.after hostOps0_1 (StableHlo.after hostOps0 (W0 m ρ c))) (Proc.devRef .tc main_arg5) = _
  simp only [hostOps0, hostOps0_1, hostOps0_2]
  after_results

/-! ## At the first region's exit: its output is X · W1, everything else as it was -/

theorem exit0_prod : W4 m ρ c (Proc.devRef .tc main_v31) = prod0 (feat m c) (w1 m c) := by
  refine (W4_arr m ρ c 2).trans ?_
  rw [Cert.KernelIdeal.FirstProduct.final (V3 m ρ) c]
  show prod0 (W3 m ρ c (Proc.devRef .tc main_arg0)) (W3 m ρ c (Proc.devRef .tc main_arg2)) = _
  rw [entry0_feat m ρ c, entry0_w1 m ρ c]

theorem exit0_src : W4 m ρ c (Proc.devRef .tc main_v5) = src (edges m c) :=
  (W4_of_ne m ρ c main_v5 (by decide)).trans (entry0_src m ρ c)
theorem exit0_dst : W4 m ρ c (Proc.devRef .tc main_v6) = dst (edges m c) :=
  (W4_of_ne m ρ c main_v6 (by decide)).trans (entry0_dst m ρ c)
theorem exit0_nrm : W4 m ρ c (Proc.devRef .tc main_v30) = nrmCol (edges m c) :=
  (W4_of_ne m ρ c main_v30 (by decide)).trans (entry0_nrm m ρ c)
theorem exit0_b1 : W4 m ρ c (Proc.devRef .tc main_arg3) = b1 m c :=
  (W4_of_ne m ρ c main_arg3 (by decide)).trans (entry0_b1 m ρ c)
theorem exit0_w2 : W4 m ρ c (Proc.devRef .tc main_arg4) = w2 m c :=
  (W4_of_ne m ρ c main_arg4 (by decide)).trans (entry0_w2 m ρ c)
theorem exit0_b2 : W4 m ρ c (Proc.devRef .tc main_arg5) = b2 m c :=
  (W4_of_ne m ρ c main_arg5 (by decide)).trans (entry0_b2 m ρ c)

/-! ## At the second region's entry: the first layer's aggregation has run -/

theorem entry1_hidden : W6 m ρ c (Proc.devRef .tc main_v47) = layer (edges m c) (prod0 (feat m c) (w1 m c)) (b1 m c) := by
  refine (relu1_read (W5 m ρ c)).trans ?_
  rw [show W5 m ρ c (Proc.devRef .tc main_v46) = _ from preact1_read (W4 m ρ c)]
  rw [exit0_prod m ρ c, exit0_src m ρ c, exit0_dst m ρ c, exit0_nrm m ρ c, exit0_b1 m ρ c]
  rfl

theorem entry1_src : W6 m ρ c (Proc.devRef .tc main_v5) = src (edges m c) := by
  show StableHlo.after hostOps1_1 (StableHlo.after hostOps1 (W4 m ρ c)) (Proc.devRef .tc main_v5) = _
  simp only [hostOps1, hostOps1_1]
  after_results
  exact exit0_src m ρ c
theorem entry1_dst : W6 m ρ c (Proc.devRef .tc main_v6) = dst (edges m c) := by
  show StableHlo.after hostOps1_1 (StableHlo.after hostOps1 (W4 m ρ c)) (Proc.devRef .tc main_v6) = _
  simp only [hostOps1, hostOps1_1]
  after_results
  exact exit0_dst m ρ c
theorem entry1_nrm : W6 m ρ c (Proc.devRef .tc main_v30) = nrmCol (edges m c) := by
  show StableHlo.after hostOps1_1 (StableHlo.after hostOps1 (W4 m ρ c)) (Proc.devRef .tc main_v30) = _
  simp only [hostOps1, hostOps1_1]
  after_results
  exact exit0_nrm m ρ c
theorem entry1_w2 : W6 m ρ c (Proc.devRef .tc main_arg4) = w2 m c := by
  show StableHlo.after hostOps1_1 (StableHlo.after hostOps1 (W4 m ρ c)) (Proc.devRef .tc main_arg4) = _
  simp only [hostOps1, hostOps1_1]
  after_results
  exact exit0_w2 m ρ c
theorem entry1_b2 : W6 m ρ c (Proc.devRef .tc main_arg5) = b2 m c := by
  show StableHlo.after hostOps1_1 (StableHlo.after hostOps1 (W4 m ρ c)) (Proc.devRef .tc main_arg5) = _
  simp only [hostOps1, hostOps1_1]
  after_results
  exact exit0_b2 m ρ c

/-! ## At the second region's exit: its output is H · W2, everything else as it was -/

theorem exit1_prod : W7 m ρ c (Proc.devRef .tc main_v48)
    = prod1 (layer (edges m c) (prod0 (feat m c) (w1 m c)) (b1 m c)) (w2 m c) := by
  refine (W7_arr m ρ c 2).trans ?_
  rw [Cert.KernelIdeal.SecondProduct.final (V6 m ρ) c]
  show prod1 (W6 m ρ c (Proc.devRef .tc main_v47)) (W6 m ρ c (Proc.devRef .tc main_arg4)) = _
  rw [entry1_hidden m ρ c, entry1_w2 m ρ c]

theorem exit1_src : W7 m ρ c (Proc.devRef .tc main_v5) = src (edges m c) :=
  (W7_of_ne m ρ c main_v5 (by decide)).trans (entry1_src m ρ c)
theorem exit1_dst : W7 m ρ c (Proc.devRef .tc main_v6) = dst (edges m c) :=
  (W7_of_ne m ρ c main_v6 (by decide)).trans (entry1_dst m ρ c)
theorem exit1_nrm : W7 m ρ c (Proc.devRef .tc main_v30) = nrmCol (edges m c) :=
  (W7_of_ne m ρ c main_v30 (by decide)).trans (entry1_nrm m ρ c)
theorem exit1_b2 : W7 m ρ c (Proc.devRef .tc main_arg5) = b2 m c :=
  (W7_of_ne m ρ c main_arg5 (by decide)).trans (entry1_b2 m ρ c)

/-! ## At the return: the second layer's aggregation has run -/

/-- The result buffer at the last boundary is the network of the arguments as launched. -/
theorem result : W9 m ρ c (Proc.devRef .tc main_v64)
    = network (feat m c) (edges m c) (w1 m c) (b1 m c) (w2 m c) (b2 m c) := by
  refine (relu2_read (W8 m ρ c)).trans ?_
  rw [show W8 m ρ c (Proc.devRef .tc main_v63) = _ from preact2_read (W7 m ρ c)]
  rw [exit1_prod m ρ c, exit1_src m ρ c, exit1_dst m ρ c, exit1_nrm m ρ c, exit1_b2 m ρ c]
  rfl

end Cert.KernelIdeal.KernelValue

end
-- ==== Proof.lean ====
/-
  A two-layer graph convolution: the kernel program against its jnp reference, on extended reals.

  Both programs compute, from node features X (50000 × 128), an edge array e (2 × 800000), weights W1, W2 and biases
  b1, b2,
      H = max(0, A · (X · W1) + b1),      result = max(0, A · (H · W2) + b2),
  where A is the normalised adjacency of the graph of e with a self-loop at every node: the edge weight is
  dinv(s) · dinv(d) with dinv = deg^(-1/2) where the in-degree is positive and 0 elsewhere, and A · P is a gather of
  the rows of P at the source ends, scaled, scatter-added at the destination ends. The aggregation is the same host
  operations on the same operands in both programs. They differ only in the two dense products: the reference takes
  them whole on the host; the kernel takes each in 25 blocks of 2000 rows on the matrix unit, its operands rounded to
  bf16 first. On extended reals the rounding is the identity and a block's entry is the same sum ∑ₖ X(r, k) · W(k, q)
  as the whole product's, so the output arrays are equal — no law of arithmetic beyond that is used, and the
  precondition (finite inputs) is never opened.

  Proof/BlockProduct, Proof/HostProduct: one block's product and the host's product at an index.
  Proof/FirstProduct, Proof/SecondProduct: each region's output array is the host product of the arrays it found.
  Proof/KernelRun: the kernel program terminates, nothing faulting, its result at the last segment boundary's contents.
  Proof/KernelValue: those contents are the network of the arguments.
  Proof/Layer: the network, and that the reference's result term is it.
  Proof/ReferenceRun: the reference program's run.
-/
import proofs.«160929_j9560597201316_1_alg».proof.Defs
import proofs.«160929_j9560597201316_1_alg».proof.Proof.Gen.Kernel
import proofs.«160929_j9560597201316_1_alg».proof.Proof.Gen.Kernel.Frame
import proofs.«160929_j9560597201316_1_alg».proof.Proof.Gen.KernelIdeal
import proofs.«160929_j9560597201316_1_alg».proof.Proof.Gen.KernelIdeal.Frame
import proofs.«160929_j9560597201316_1_alg».proof.Proof.Gen.ReferenceIdeal
import proofs.«160929_j9560597201316_1_alg».proof.Proof.Gen.Pre_finite_inputs
import proofs.«160929_j9560597201316_1_alg».proof.Proof.ReferenceRun
import proofs.«160929_j9560597201316_1_alg».proof.Proof.KernelRun
import proofs.«160929_j9560597201316_1_alg».proof.Proof.KernelValue
import proofs.«160929_j9560597201316_1_alg».proof.Proof.Layer
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read on extended reals. -/
theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories agreeing on the six arguments both programs end with the network of those arguments in their result
    buffers: the kernel program by its run and the fold through its segments, the reference by its run. -/
theorem algebraic : Cert.algebraic_KernelIdeal_ReferenceIdeal := by
  intro m ρ m' ρ' _ hagree
  refine ⟨fun c => Cert.ReferenceIdeal.Layer.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result m ρ c), (h c).2⟩)
      (Cert.KernelIdeal.KernelRun.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.ReferenceIdeal.Layer.reference_eq m' c, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
